-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S3x128x128 .f32) (main_arg4 : FVec F S3x128x128 .f32) (main_arg5 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 88
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128x128, .f32⟩
  | .hbm, ⟨35, _⟩ => ⟨S128x128, .f32⟩
  | .hbm, ⟨36, _⟩ => ⟨S1x128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128x128, .f32⟩
  | .hbm, ⟨58, _⟩ => ⟨S128x128, .f32⟩
  | .hbm, ⟨59, _⟩ => ⟨S1x128x128, .f32⟩
  | .hbm, ⟨60, _⟩ => ⟨S128x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128x128, .f32⟩
  | .hbm, ⟨81, _⟩ => ⟨S128x128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128x128, .f32⟩
  | .hbm, ⟨35, _⟩ => ⟨S128x128, .f32⟩
  | .hbm, ⟨36, _⟩ => ⟨S50000x128, .f32⟩
  | .hbm, ⟨37, _⟩ => ⟨S1x128x128, .f32⟩
  | .hbm, ⟨38, _⟩ => ⟨S128x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S50000x128, .f32⟩
  | .hbm, ⟨67, _⟩ => ⟨S1x128x128, .f32⟩
  | .hbm, ⟨68, _⟩ => ⟨S128x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S1x128x128, .f32⟩
  | .hbm, ⟨95, _⟩ => ⟨S128x128, .f32⟩
  | .hbm, ⟨96, _⟩ => ⟨S50000x128, .f32⟩
  | .hbm, ⟨97, _⟩ => ⟨S1x128x128, .f32⟩
  | .hbm, ⟨98, _⟩ => ⟨S128x128, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S128, .f32⟩
  | .hbm, ⟨103, _⟩ => ⟨S1x128, .f32⟩
  | .hbm, ⟨104, _⟩ => ⟨S50000x128, .f32⟩
  | .hbm, ⟨105, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call1_cst : Ref sig .tc := ⟨.hbm, 76, rfl⟩
abbrev main_call1_v0 : Ref sig .tc := ⟨.hbm, 77, rfl⟩
abbrev main_v58 : Ref sig .tc := ⟨.hbm, 78, rfl⟩
abbrev main_c_8 : Ref sig .tc := ⟨.hbm, 79, rfl⟩
abbrev main_v59 : Ref sig .tc := ⟨.hbm, 80, rfl⟩
abbrev main_v60 : Ref sig .tc := ⟨.hbm, 81, rfl⟩
abbrev main_c_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  Every weakly fair run of the three-region program, from any memory with every counter at zero, terminates, and in
  every final state each unscoped buffer of each core holds the value that the fold through the host stretches and the
  regions gives it. In particular the last region's output array holds what that region's write-backs leave.
-/
import proofs.«136023_j41042707480955_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option backward.isDefEq.respectTransparency.types false in
/-- The run of the whole program: it terminates on every weakly fair schedule, and every final state has each
    unscoped buffer of each core at the last boundary's contents. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Gen.W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The last region's output array at the end of the run: what the region's write-backs, folded over all of its grid
    points, leave in it. -/
theorem result_eq (m : (ℓ : Loc nD τ sig) → Buf (Elt F) ℓ) (ρ : Dev nD → PrngReg) (c : Dev nD) :
    Gen.W6 m ρ c (Proc.devRef .tc main_v68) = (Gen.dat2 (Gen.V5 m ρ) c).arrAt 5 cfg2.N :=
  Gen.W6_arr m ρ c 5

end Cert.KernelIdeal.Whole

end
-- ==== Proof.Claims.lean ====
/-
  The five claims of the certificate. The three frame claims are the programs' own runs with everything but the
  argument arrays forgotten, and the idealization rewrote nothing; the algebraic claim is assembled from the two runs at
  the extended reals, given that the kernel program's result array ends at the reference's function of the six
  argument arrays: that function of the launch arrays is the common value.
-/
import proofs.«136023_j41042707480955_1_alg».proof.Defs
import proofs.«136023_j41042707480955_1_alg».proof.Proof.Gen.Kernel.Frame
import proofs.«136023_j41042707480955_1_alg».proof.Proof.Gen.KernelIdeal.Frame
import proofs.«136023_j41042707480955_1_alg».proof.Proof.Gen.ReferenceIdeal.Run
import proofs.«136023_j41042707480955_1_alg».proof.Proof.Gen.ReferenceIdeal.Read
import proofs.«136023_j41042707480955_1_alg».proof.Proof.Gen.Pre_finite_inputs
import proofs.«136023_j41042707480955_1_alg».proof.Proof.KernelRun

noncomputable section

namespace Cert.Proof.Claims

open Idealize.ShloMosaic Idealize.SL.Sem

/-- The kernel program as printed runs and leaves its arguments as launched. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- So does the reference: its run, the result's conjunct dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized program is the printed one read at the extended reals: no operation was rewritten. -/
theorem preserves : Cert.preserves_Kernel_KernelIdeal := trivial

/-- Suppose that, from any launch memory, the fold of the kernel program through its host stretches and regions leaves
    in the result array the reference's function of the six launch argument arrays. Then from memories agreeing on the
    arguments both programs run, both results are that function of the kernel's launch arrays, and the arguments are
    unchanged: the kernel's side is its whole run read at the result array and at each argument; the reference's side
    is its run, whose result is the same function of its own launch arrays, which are the kernel's by agreement. -/
theorem algebraic_of
    (hres : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
          Cert.KernelIdeal.Gen.W6 m ρ c (Proc.devRef .tc Cert.KernelIdeal.main_v68)
            = Cert.ReferenceIdeal.Read.val_main_v82 (F := Ideal)
              (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
              (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :
    Cert.algebraic_KernelIdeal_ReferenceIdeal := by
  intro m ρ m' ρ' _ hagree
  refine ⟨fun c => Cert.ReferenceIdeal.Read.val_main_v82 (F := Ideal)
              (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
              (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c =>
      ⟨(h c _ (Cert.KernelIdeal.Gen.mem_uc Cert.KernelIdeal.main_v68 (by decide))).trans (hres m ρ c),
       (h c _ (Cert.KernelIdeal.Gen.mem_uc Cert.KernelIdeal.main_arg0 (by decide))).trans (Cert.KernelIdeal.Gen.W6_main_arg0 m ρ c),
       (h c _ (Cert.KernelIdeal.Gen.mem_uc Cert.KernelIdeal.main_arg1 (by decide))).trans (Cert.KernelIdeal.Gen.W6_main_arg1 m ρ c),
       (h c _ (Cert.KernelIdeal.Gen.mem_uc Cert.KernelIdeal.main_arg2 (by decide))).trans (Cert.KernelIdeal.Gen.W6_main_arg2 m ρ c),
       (h c _ (Cert.KernelIdeal.Gen.mem_uc Cert.KernelIdeal.main_arg3 (by decide))).trans (Cert.KernelIdeal.Gen.W6_main_arg3 m ρ c),
       (h c _ (Cert.KernelIdeal.Gen.mem_uc Cert.KernelIdeal.main_arg4 (by decide))).trans (Cert.KernelIdeal.Gen.W6_main_arg4 m ρ c),
       (h c _ (Cert.KernelIdeal.Gen.mem_uc Cert.KernelIdeal.main_arg5 (by decide))).trans (Cert.KernelIdeal.Gen.W6_main_arg5 m ρ c)⟩)
      (Cert.KernelIdeal.Whole.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v82_eq m' c, (hagree c).1, (hagree c).2.1, (hagree c).2.2.1, (hagree c).2.2.2.1,
      (hagree c).2.2.2.2.1, (hagree c).2.2.2.2.2]

end Cert.Proof.Claims

end
-- ==== Proof.Spec.lean ====
/-
  One mean-aggregation layer as a function of whole arrays, over the extended reals.

  For node features `h` and mean-aggregated neighbour features `hn` (both 50000 × 128), weights `ws`, `wn`
  (128 × 128) and a bias row `b` (128), entry (p, q) of the layer's affine part is
      (∑ₖ h(p,k) · ws(k,q)) + (∑ₖ hn(p,k) · wn(k,q)) + b(q),
  the two products summed separately, then added, then the bias added: exactly the association in which both
  programs compute it, so no law of the extended reals beyond the reading of each operation is needed (in particular
  nothing here asks the entries to be finite). `act` clamps the affine part below at zero; `lin` leaves it as it is.
-/
import Idealize.ShloMosaic.PureOps.Ideal
import Idealize.ShloMosaic.Lib.ValueIdx

noncomputable section

namespace Cert.Sage

open Idealize.ShloMosaic Idealize.ShloMosaic.ValueIdx

/-- Index types of the three array shapes a layer reads. -/
abbrev NodeIdx : Type := (⟨2, ![50000, 128]⟩ : Shape).Idx
abbrev WeightIdx : Type := (⟨2, ![128, 128]⟩ : Shape).Idx

/-- Entry (p, q) of the affine part: the self product, plus the neighbour product, plus the bias. -/
def affine (h hn : NodeIdx → EReal) (ws wn : WeightIdx → EReal) (b : Fin 128 → EReal) (p : Fin 50000) (q : Fin 128) : EReal :=
  (∑ k : Fin 128, h (ix2 p k) * ws (ix2 k q)) + (∑ k : Fin 128, hn (ix2 p k) * wn (ix2 k q)) + b q

/-- A layer without activation (the last one). -/
def lin (h hn : NodeIdx → EReal) (ws wn : WeightIdx → EReal) (b : Fin 128 → EReal) : NodeIdx → EReal :=
  fun i => affine h hn ws wn b (i 0) (i 1)

/-- A layer with the activation max(·, 0) (the first two). -/
def act (h hn : NodeIdx → EReal) (ws wn : WeightIdx → EReal) (b : Fin 128 → EReal) : NodeIdx → EReal :=
  fun i => max (affine h hn ws wn b (i 0) (i 1)) 0

theorem lin_ix2 (h hn : NodeIdx → EReal) (ws wn : WeightIdx → EReal) (b : Fin 128 → EReal) (p : Fin 50000) (q : Fin 128) :
    lin h hn ws wn b (ix2 p q) = affine h hn ws wn b p q := rfl

theorem act_ix2 (h hn : NodeIdx → EReal) (ws wn : WeightIdx → EReal) (b : Fin 128 → EReal) (p : Fin 50000) (q : Fin 128) :
    act h hn ws wn b (ix2 p q) = max (affine h hn ws wn b p q) 0 := rfl

end Cert.Sage

end
-- ==== Proof.Payload.lean ====
/-
  What one grid point of each layer kernel computes, entry by entry.

  The body loads a 2000-row block `x` of the features, the same rows `y` of the aggregated neighbour features, the two
  128 × 128 weight matrices `u`, `v` and the bias row `b`, and stores, at row p and column q of the block,
      (∑ₖ x(p,k) · u(k,q)) + (∑ₖ y(p,k) · v(k,q)) + b(0,q)
  (clamped below at zero in the first two layers). At the ideal instance the narrowing of the operands to a shorter
  float format is the identity and each product into a zero accumulator is the plain sum over the contracted axis, so
  the entry is the specification's affine part of the loaded blocks.
-/
import proofs.«136023_j41042707480955_1_alg».proof.Proof.Gen.KernelIdeal.Skeleton
import proofs.«136023_j41042707480955_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The block product as a sum over the contracted axis -/

theorem lhs_row (i : S2000x128.Idx) (κ : dot_S2000x128_S128x128_S2000x128_1_0_0_1_n_n.contr.Idx) :
    (dot_S2000x128_S128x128_S2000x128_1_0_0_1_n_n.lhsIdx i κ 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (κ : dot_S2000x128_S128x128_S2000x128_1_0_0_1_n_n.contr.Idx) :
    (dot_S2000x128_S128x128_S2000x128_1_0_0_1_n_n.lhsIdx i κ 1).val = (κ ⟨0, by decide⟩).val :=
  dot_S2000x128_S128x128_S2000x128_1_0_0_1_n_n.lhsIdx_val_of_single rfl i κ
theorem rhs_row (i : S2000x128.Idx) (κ : dot_S2000x128_S128x128_S2000x128_1_0_0_1_n_n.contr.Idx) :
    (dot_S2000x128_S128x128_S2000x128_1_0_0_1_n_n.rhsIdx i κ 0).val = (κ ⟨0, by decide⟩).val :=
  dot_S2000x128_S128x128_S2000x128_1_0_0_1_n_n.rhsIdx_val_of_single rfl i κ
theorem rhs_col (i : S2000x128.Idx) (κ : dot_S2000x128_S128x128_S2000x128_1_0_0_1_n_n.contr.Idx) :
    (dot_S2000x128_S128x128_S2000x128_1_0_0_1_n_n.rhsIdx i κ 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of a 2000 × 128 by 128 × 128 product into a zero accumulator is ∑ₖ l(p,k) · r(k,q). -/
theorem product_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The three payloads at entry (p, q) -/

/-- The common affine part of the stored value, over the loaded blocks. -/
def blockAffine (x y : Vec Ideal S2000x128 .f32) (u v : Vec Ideal S128x128 .f32) (b : Vec Ideal S1x128 .f32) (p : Fin 2000) (q : Fin 128) : EReal :=
  (∑ k : Fin 128, x (ix2 p k) * u (ix2 k q)) + (∑ k : Fin 128, y (ix2 p k) * v (ix2 k q)) + b (ix2 (0 : Fin 1) q)

theorem zero_word : (Scalar.ofBits (F := Ideal) .f32 0x00000000#32 : EReal) = 0 := Ideal.ofBits_zero_f32

theorem pay0_apply (x y : Vec Ideal S2000x128 .f32) (u v : Vec Ideal S128x128 .f32) (b : Vec Ideal S1x128 .f32) (p : Fin 2000) (q : Fin 128) :
    k0_pay1 (F := Ideal) x y u v b (ix2 p q) = max (blockAffine x y u v b p q) 0 := by
  unfold k0_pay1 blockAffine
  simp only [shapeCast_self]
  rw [maximumf_apply, addf_apply, addf_apply, product_apply, product_apply, broadcastTo_1b_ab_apply, broadcast_apply, zero_word]
  rfl

theorem pay1_apply (x y : Vec Ideal S2000x128 .f32) (u v : Vec Ideal S128x128 .f32) (b : Vec Ideal S1x128 .f32) (p : Fin 2000) (q : Fin 128) :
    k1_pay1 (F := Ideal) x y u v b (ix2 p q) = max (blockAffine x y u v b p q) 0 := by
  unfold k1_pay1 blockAffine
  simp only [shapeCast_self]
  rw [maximumf_apply, addf_apply, addf_apply, product_apply, product_apply, broadcastTo_1b_ab_apply, broadcast_apply, zero_word]
  rfl

theorem pay2_apply (x y : Vec Ideal S2000x128 .f32) (u v : Vec Ideal S128x128 .f32) (b : Vec Ideal S1x128 .f32) (p : Fin 2000) (q : Fin 128) :
    k2_pay1 (F := Ideal) x y u v b (ix2 p q) = blockAffine x y u v b p q := by
  unfold k2_pay1 blockAffine
  simp only [shapeCast_self]
  rw [addf_apply, addf_apply, product_apply, product_apply, broadcastTo_1b_ab_apply]
  rfl

end Cert.KernelIdeal.Block

end
-- ==== Proof.Layer0.lean ====
/-
  Layer 0 of the kernel program, as a whole array.

  The layer's kernel walks the 50000 node rows in 25 blocks of 2000. At block t it reads rows 2000·t … 2000·t + 1999 of
  the features and of the aggregated neighbour features, the whole weight matrices and the whole bias row, and writes
  the same rows of its output. So what block t writes back is the restriction to those rows of ONE function of the whole
  input arrays — the specification's layer with its activation — and, the 25 blocks covering every row, the output array after the
  last block IS that function of the arrays the layer found on entry.
-/
import proofs.«136023_j41042707480955_1_alg».proof.Proof.Gen.KernelIdeal.Frame
import proofs.«136023_j41042707480955_1_alg».proof.Proof.Payload

set_option maxRecDepth 16384

noncomputable section

namespace Cert.KernelIdeal.Layer0

open Cert.KernelIdeal Cert.KernelIdeal.Gen Cert.KernelIdeal.Block Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The index maps, decided over the 25 grid points: the two row-blocked inputs and the output sit at block row t and
    block column 0; the weights and the bias are always block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is node row 2000·t + p. -/
def row (t : Fin 25) (p : Fin 2000) : Fin 50000 := ⟨t.val * 2000 + p.val, by have := t.isLt; have := p.isLt; omega⟩

/-- The layer as one function of the arrays found on entry. -/
def whole (c : Dev nD) : Cert.Sage.NodeIdx → EReal :=
  Cert.Sage.act (V c main_arg0) (V c main_v20) (V c main_v22) (V c main_v24) (fun q => V c main_v27 (ix2 (0 : Fin 1) q))

/-! ## The blocks the body reads -/

theorem read_h (c : Dev nD) (t : Fin cfg0.N) (p : Fin 2000) (k : Fin 128) :
    iblk0 V c 0 t (ix2 p k) = V c main_arg0 (ix2 (row t p) k) := by
  obtain ⟨e0, e1, -⟩ := index_maps t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem read_hn (c : Dev nD) (t : Fin cfg0.N) (p : Fin 2000) (k : Fin 128) :
    iblk0 V c 1 t (ix2 p k) = V c main_v20 (ix2 (row t p) k) := by
  obtain ⟨-, -, e0, e1, -⟩ := index_maps t
  show V c main_v20 (((cfg0.win 1).blk t).view.emb (ix2 p k)) = _
  refine congrArg (V c main_v20) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

theorem read_ws (c : Dev nD) (t : Fin cfg0.N) (k : Fin 128) (q : Fin 128) :
    iblk0 V c 2 t (ix2 k q) = V c main_v22 (ix2 k q) := by
  obtain ⟨-, -, -, -, e0, e1, -⟩ := index_maps t
  show V c main_v22 (((cfg0.win 2).blk t).view.emb (ix2 k q)) = _
  refine congrArg (V c main_v22) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read_wn (c : Dev nD) (t : Fin cfg0.N) (k : Fin 128) (q : Fin 128) :
    iblk0 V c 3 t (ix2 k q) = V c main_v24 (ix2 k q) := by
  obtain ⟨-, -, -, -, -, -, e0, e1, -⟩ := index_maps t
  show V c main_v24 (((cfg0.win 3).blk t).view.emb (ix2 k q)) = _
  refine congrArg (V c main_v24) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem read_b (c : Dev nD) (t : Fin cfg0.N) (q : Fin 128) :
    iblk0 V c 4 t (ix2 (0 : Fin 1) q) = V c main_v27 (ix2 (0 : Fin 1) q) := by
  obtain ⟨-, -, -, -, -, -, -, -, e0, e1, -⟩ := index_maps t
  show V c main_v27 (((cfg0.win 4).blk t).view.emb (ix2 (0 : Fin 1) q)) = _
  refine congrArg (V c main_v27) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The body's stored value at row p, column q of block t is the layer's value at node row 2000·t + p, column q. -/
theorem point (c : Dev nD) (t : Fin cfg0.N) (p : Fin 2000) (q : Fin 128) :
    k0_pay1 (F := Ideal) (iblk0 V c 0 t) (iblk0 V c 1 t) (iblk0 V c 2 t) (iblk0 V c 3 t) (iblk0 V c 4 t) (ix2 p q)
      = whole V c (ix2 (row t p) q) := by
  refine (pay0_apply (iblk0 V c 0 t) (iblk0 V c 1 t) (iblk0 V c 2 t) (iblk0 V c 3 t) (iblk0 V c 4 t) p q).trans ?_
  unfold whole
  rw [Cert.Sage.act_ix2]
  unfold blockAffine Cert.Sage.affine
  simp only [read_h V c t, read_hn V c t, read_ws V c t, read_wn V c t, read_b V c t]

/-! ## From blocks to the array -/

/-- What point t writes back is block t of the whole-array function. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero zeros]
  simp only [View.ld_unit_zero (S := S2000x128) zeros, View.ld_unit_zero (S := S128x128) zeros, View.ld_unit_zero (S := S1x128) zeros]
  obtain ⟨-, -, -, -, -, -, -, -, -, -, e0, e1⟩ := index_maps t
  funext j
  show k0_pay1 (F := Ideal) (iblk0 V c 0 t) (iblk0 V c 1 t) (iblk0 V c 2 t) (iblk0 V c 3 t) (iblk0 V c 4 t) j
      = whole V c (((cfg0.win 5).blk t).view.emb j)
  refine ((congrArg (k0_pay1 (F := Ideal) (iblk0 V c 0 t) (iblk0 V c 1 t) (iblk0 V c 2 t) (iblk0 V c 3 t) (iblk0 V c 4 t))
    (eq_ix2 (n0 := 2000) (n1 := 128) j)).trans (point V c t (j 0) (j 1))).trans ?_
  refine congrArg (whole V c) (funext fun a => Fin.ext ?_)
  match a with
  | ⟨0, _⟩ => show t.val * 2000 + (j 0).val = win0_5.index t (0 : Fin 2) * 2000 + 1 * (j 0).val; omega
  | ⟨1, _⟩ => show (j 1).val = win0_5.index t (1 : Fin 2) * 128 + 1 * (j 1).val; omega

/-- An index of the output array is in block t iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28).slice (win0_5.rect t)).set ↔ _
  rw [View.set_slice_whole, Rect.mem_set_unit]
  exact Iff.rfl

/-- Every node row lies in the block numbered by its quotient by 2000. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 2000 < 25 := by omega
  refine ⟨⟨(i 0).val / 2000, ht⟩, flush0_5 _, ?_⟩
  obtain ⟨-, -, -, -, -, -, -, -, -, -, e0, e1⟩ := index_maps ⟨(i 0).val / 2000, ht⟩
  rw [mem_blk]
  intro a
  match a with
  | ⟨0, _⟩ => show win0_5.index ⟨(i 0).val / 2000, ht⟩ (0 : Fin 2) * 2000 ≤ (i 0).val ∧ (i 0).val < win0_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win0_5.index ⟨(i 0).val / 2000, ht⟩ (1 : Fin 2) * 128 ≤ (i 1).val ∧ (i 1).val < win0_5.index ⟨(i 0).val / 2000, ht⟩ (1 : Fin 2) * 128 + 128; omega

/-- The output array after the last block is the layer of the arrays found on entry. -/
theorem final (c : Dev nD) : (dat0 V c).arrAt 5 cfg0.N = whole V c :=
  (dat0 V c).arrAt_eq_of_cover 5 (whole V c) (fun t _ => flushed_eq V c t) covered

end Cert.KernelIdeal.Layer0

end
-- ==== Proof.Layer1.lean ====
/-
  Layer 1 of the kernel program, as a whole array.

  The layer's kernel walks the 50000 node rows in 25 blocks of 2000. At block t it reads rows 2000·t … 2000·t + 1999 of
  the features and of the aggregated neighbour features, the whole weight matrices and the whole bias row, and writes
  the same rows of its output. So what block t writes back is the restriction to those rows of ONE function of the whole
  input arrays — the specification's layer with its activation — and, the 25 blocks covering every row, the output array after the
  last block IS that function of the arrays the layer found on entry.
-/
import proofs.«136023_j41042707480955_1_alg».proof.Proof.Gen.KernelIdeal.Frame
import proofs.«136023_j41042707480955_1_alg».proof.Proof.Payload

set_option maxRecDepth 16384

noncomputable section

namespace Cert.KernelIdeal.Layer1

open Cert.KernelIdeal Cert.KernelIdeal.Gen Cert.KernelIdeal.Block Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The index maps, decided over the 25 grid points: the two row-blocked inputs and the output sit at block row t and
    block column 0; the weights and the bias are always block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is node row 2000·t + p. -/
def row (t : Fin 25) (p : Fin 2000) : Fin 50000 := ⟨t.val * 2000 + p.val, by have := t.isLt; have := p.isLt; omega⟩

/-- The layer as one function of the arrays found on entry. -/
def whole (c : Dev nD) : Cert.Sage.NodeIdx → EReal :=
  Cert.Sage.act (V c main_v28) (V c main_v40) (V c main_v42) (V c main_v44) (fun q => V c main_v47 (ix2 (0 : Fin 1) q))

/-! ## The blocks the body reads -/

theorem read_h (c : Dev nD) (t : Fin cfg1.N) (p : Fin 2000) (k : Fin 128) :
    iblk1 V c 0 t (ix2 p k) = V c main_v28 (ix2 (row t p) k) := by
  obtain ⟨e0, e1, -⟩ := index_maps t
  show V c main_v28 (((cfg1.win 0).blk t).view.emb (ix2 p k)) = _
  refine congrArg (V c main_v28) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem read_hn (c : Dev nD) (t : Fin cfg1.N) (p : Fin 2000) (k : Fin 128) :
    iblk1 V c 1 t (ix2 p k) = V c main_v40 (ix2 (row t p) k) := by
  obtain ⟨-, -, e0, e1, -⟩ := index_maps t
  show V c main_v40 (((cfg1.win 1).blk t).view.emb (ix2 p k)) = _
  refine congrArg (V c main_v40) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

theorem read_ws (c : Dev nD) (t : Fin cfg1.N) (k : Fin 128) (q : Fin 128) :
    iblk1 V c 2 t (ix2 k q) = V c main_v42 (ix2 k q) := by
  obtain ⟨-, -, -, -, e0, e1, -⟩ := index_maps t
  show V c main_v42 (((cfg1.win 2).blk t).view.emb (ix2 k q)) = _
  refine congrArg (V c main_v42) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem read_wn (c : Dev nD) (t : Fin cfg1.N) (k : Fin 128) (q : Fin 128) :
    iblk1 V c 3 t (ix2 k q) = V c main_v44 (ix2 k q) := by
  obtain ⟨-, -, -, -, -, -, e0, e1, -⟩ := index_maps t
  show V c main_v44 (((cfg1.win 3).blk t).view.emb (ix2 k q)) = _
  refine congrArg (V c main_v44) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem read_b (c : Dev nD) (t : Fin cfg1.N) (q : Fin 128) :
    iblk1 V c 4 t (ix2 (0 : Fin 1) q) = V c main_v47 (ix2 (0 : Fin 1) q) := by
  obtain ⟨-, -, -, -, -, -, -, -, e0, e1, -⟩ := index_maps t
  show V c main_v47 (((cfg1.win 4).blk t).view.emb (ix2 (0 : Fin 1) q)) = _
  refine congrArg (V c main_v47) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The body's stored value at row p, column q of block t is the layer's value at node row 2000·t + p, column q. -/
theorem point (c : Dev nD) (t : Fin cfg1.N) (p : Fin 2000) (q : Fin 128) :
    k1_pay1 (F := Ideal) (iblk1 V c 0 t) (iblk1 V c 1 t) (iblk1 V c 2 t) (iblk1 V c 3 t) (iblk1 V c 4 t) (ix2 p q)
      = whole V c (ix2 (row t p) q) := by
  refine (pay1_apply (iblk1 V c 0 t) (iblk1 V c 1 t) (iblk1 V c 2 t) (iblk1 V c 3 t) (iblk1 V c 4 t) p q).trans ?_
  unfold whole
  rw [Cert.Sage.act_ix2]
  unfold blockAffine Cert.Sage.affine
  simp only [read_h V c t, read_hn V c t, read_ws V c t, read_wn V c t, read_b V c t]

/-! ## From blocks to the array -/

/-- What point t writes back is block t of the whole-array function. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero zeros]
  simp only [View.ld_unit_zero (S := S2000x128) zeros, View.ld_unit_zero (S := S128x128) zeros, View.ld_unit_zero (S := S1x128) zeros]
  obtain ⟨-, -, -, -, -, -, -, -, -, -, e0, e1⟩ := index_maps t
  funext j
  show k1_pay1 (F := Ideal) (iblk1 V c 0 t) (iblk1 V c 1 t) (iblk1 V c 2 t) (iblk1 V c 3 t) (iblk1 V c 4 t) j
      = whole V c (((cfg1.win 5).blk t).view.emb j)
  refine ((congrArg (k1_pay1 (F := Ideal) (iblk1 V c 0 t) (iblk1 V c 1 t) (iblk1 V c 2 t) (iblk1 V c 3 t) (iblk1 V c 4 t))
    (eq_ix2 (n0 := 2000) (n1 := 128) j)).trans (point V c t (j 0) (j 1))).trans ?_
  refine congrArg (whole V c) (funext fun a => Fin.ext ?_)
  match a with
  | ⟨0, _⟩ => show t.val * 2000 + (j 0).val = win1_5.index t (0 : Fin 2) * 2000 + 1 * (j 0).val; omega
  | ⟨1, _⟩ => show (j 1).val = win1_5.index t (1 : Fin 2) * 128 + 1 * (j 1).val; omega

/-- An index of the output array is in block t iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v48).slice (win1_5.rect t)).set ↔ _
  rw [View.set_slice_whole, Rect.mem_set_unit]
  exact Iff.rfl

/-- Every node row lies in the block numbered by its quotient by 2000. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < 25 := by omega
  refine ⟨⟨(i 0).val / 2000, ht⟩, flush1_5 _, ?_⟩
  obtain ⟨-, -, -, -, -, -, -, -, -, -, e0, e1⟩ := index_maps ⟨(i 0).val / 2000, ht⟩
  rw [mem_blk]
  intro a
  match a with
  | ⟨0, _⟩ => show win1_5.index ⟨(i 0).val / 2000, ht⟩ (0 : Fin 2) * 2000 ≤ (i 0).val ∧ (i 0).val < win1_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win1_5.index ⟨(i 0).val / 2000, ht⟩ (1 : Fin 2) * 128 ≤ (i 1).val ∧ (i 1).val < win1_5.index ⟨(i 0).val / 2000, ht⟩ (1 : Fin 2) * 128 + 128; omega

/-- The output array after the last block is the layer of the arrays found on entry. -/
theorem final (c : Dev nD) : (dat1 V c).arrAt 5 cfg1.N = whole V c :=
  (dat1 V c).arrAt_eq_of_cover 5 (whole V c) (fun t _ => flushed_eq V c t) covered

end Cert.KernelIdeal.Layer1

end
-- ==== Proof.Layer2.lean ====
/-
  Layer 2 of the kernel program, as a whole array.

  The layer's kernel walks the 50000 node rows in 25 blocks of 2000. At block t it reads rows 2000·t … 2000·t + 1999 of
  the features and of the aggregated neighbour features, the whole weight matrices and the whole bias row, and writes
  the same rows of its output. So what block t writes back is the restriction to those rows of ONE function of the whole
  input arrays — the specification's layer, this last one without activation — and, the 25 blocks covering every row, the output array after the
  last block IS that function of the arrays the layer found on entry.
-/
import proofs.«136023_j41042707480955_1_alg».proof.Proof.Gen.KernelIdeal.Frame
import proofs.«136023_j41042707480955_1_alg».proof.Proof.Payload

set_option maxRecDepth 16384

noncomputable section

namespace Cert.KernelIdeal.Layer2

open Cert.KernelIdeal Cert.KernelIdeal.Gen Cert.KernelIdeal.Block Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The index maps, decided over the 25 grid points: the two row-blocked inputs and the output sit at block row t and
    block column 0; the weights and the bias are always block (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of block t is node row 2000·t + p. -/
def row (t : Fin 25) (p : Fin 2000) : Fin 50000 := ⟨t.val * 2000 + p.val, by have := t.isLt; have := p.isLt; omega⟩

/-- The layer as one function of the arrays found on entry. -/
def whole (c : Dev nD) : Cert.Sage.NodeIdx → EReal :=
  Cert.Sage.lin (V c main_v48) (V c main_v60) (V c main_v62) (V c main_v64) (fun q => V c main_v67 (ix2 (0 : Fin 1) q))

/-! ## The blocks the body reads -/

theorem read_h (c : Dev nD) (t : Fin cfg2.N) (p : Fin 2000) (k : Fin 128) :
    iblk2 V c 0 t (ix2 p k) = V c main_v48 (ix2 (row t p) k) := by
  obtain ⟨e0, e1, -⟩ := index_maps t
  show V c main_v48 (((cfg2.win 0).blk t).view.emb (ix2 p k)) = _
  refine congrArg (V c main_v48) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

theorem read_hn (c : Dev nD) (t : Fin cfg2.N) (p : Fin 2000) (k : Fin 128) :
    iblk2 V c 1 t (ix2 p k) = V c main_v60 (ix2 (row t p) k) := by
  obtain ⟨-, -, e0, e1, -⟩ := index_maps t
  show V c main_v60 (((cfg2.win 1).blk t).view.emb (ix2 p k)) = _
  refine congrArg (V c main_v60) (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * k.val = k.val; omega

theorem read_ws (c : Dev nD) (t : Fin cfg2.N) (k : Fin 128) (q : Fin 128) :
    iblk2 V c 2 t (ix2 k q) = V c main_v62 (ix2 k q) := by
  obtain ⟨-, -, -, -, e0, e1, -⟩ := index_maps t
  show V c main_v62 (((cfg2.win 2).blk t).view.emb (ix2 k q)) = _
  refine congrArg (V c main_v62) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem read_wn (c : Dev nD) (t : Fin cfg2.N) (k : Fin 128) (q : Fin 128) :
    iblk2 V c 3 t (ix2 k q) = V c main_v64 (ix2 k q) := by
  obtain ⟨-, -, -, -, -, -, e0, e1, -⟩ := index_maps t
  show V c main_v64 (((cfg2.win 3).blk t).view.emb (ix2 k q)) = _
  refine congrArg (V c main_v64) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem read_b (c : Dev nD) (t : Fin cfg2.N) (q : Fin 128) :
    iblk2 V c 4 t (ix2 (0 : Fin 1) q) = V c main_v67 (ix2 (0 : Fin 1) q) := by
  obtain ⟨-, -, -, -, -, -, -, -, e0, e1, -⟩ := index_maps t
  show V c main_v67 (((cfg2.win 4).blk t).view.emb (ix2 (0 : Fin 1) q)) = _
  refine congrArg (V c main_v67) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- The body's stored value at row p, column q of block t is the layer's value at node row 2000·t + p, column q. -/
theorem point (c : Dev nD) (t : Fin cfg2.N) (p : Fin 2000) (q : Fin 128) :
    k2_pay1 (F := Ideal) (iblk2 V c 0 t) (iblk2 V c 1 t) (iblk2 V c 2 t) (iblk2 V c 3 t) (iblk2 V c 4 t) (ix2 p q)
      = whole V c (ix2 (row t p) q) := by
  refine (pay2_apply (iblk2 V c 0 t) (iblk2 V c 1 t) (iblk2 V c 2 t) (iblk2 V c 3 t) (iblk2 V c 4 t) p q).trans ?_
  unfold whole
  rw [Cert.Sage.lin_ix2]
  unfold blockAffine Cert.Sage.affine
  simp only [read_h V c t, read_hn V c t, read_ws V c t, read_wn V c t, read_b V c t]

/-! ## From blocks to the array -/

/-- What point t writes back is block t of the whole-array function. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero zeros]
  simp only [View.ld_unit_zero (S := S2000x128) zeros, View.ld_unit_zero (S := S128x128) zeros, View.ld_unit_zero (S := S1x128) zeros]
  obtain ⟨-, -, -, -, -, -, -, -, -, -, e0, e1⟩ := index_maps t
  funext j
  show k2_pay1 (F := Ideal) (iblk2 V c 0 t) (iblk2 V c 1 t) (iblk2 V c 2 t) (iblk2 V c 3 t) (iblk2 V c 4 t) j
      = whole V c (((cfg2.win 5).blk t).view.emb j)
  refine ((congrArg (k2_pay1 (F := Ideal) (iblk2 V c 0 t) (iblk2 V c 1 t) (iblk2 V c 2 t) (iblk2 V c 3 t) (iblk2 V c 4 t))
    (eq_ix2 (n0 := 2000) (n1 := 128) j)).trans (point V c t (j 0) (j 1))).trans ?_
  refine congrArg (whole V c) (funext fun a => Fin.ext ?_)
  match a with
  | ⟨0, _⟩ => show t.val * 2000 + (j 0).val = win2_5.index t (0 : Fin 2) * 2000 + 1 * (j 0).val; omega
  | ⟨1, _⟩ => show (j 1).val = win2_5.index t (1 : Fin 2) * 128 + 1 * (j 1).val; omega

/-- An index of the output array is in block t iff each coordinate is in the block's range on its axis. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v68).slice (win2_5.rect t)).set ↔ _
  rw [View.set_slice_whole, Rect.mem_set_unit]
  exact Iff.rfl

/-- Every node row lies in the block numbered by its quotient by 2000. -/
theorem covered (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have ht : (i 0).val / 2000 < 25 := by omega
  refine ⟨⟨(i 0).val / 2000, ht⟩, flush2_5 _, ?_⟩
  obtain ⟨-, -, -, -, -, -, -, -, -, -, e0, e1⟩ := index_maps ⟨(i 0).val / 2000, ht⟩
  rw [mem_blk]
  intro a
  match a with
  | ⟨0, _⟩ => show win2_5.index ⟨(i 0).val / 2000, ht⟩ (0 : Fin 2) * 2000 ≤ (i 0).val ∧ (i 0).val < win2_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win2_5.index ⟨(i 0).val / 2000, ht⟩ (1 : Fin 2) * 128 ≤ (i 1).val ∧ (i 1).val < win2_5.index ⟨(i 0).val / 2000, ht⟩ (1 : Fin 2) * 128 + 128; omega

/-- The output array after the last block is the layer of the arrays found on entry. -/
theorem final (c : Dev nD) : (dat2 V c).arrAt 5 cfg2.N = whole V c :=
  (dat2 V c).arrAt_eq_of_cover 5 (whole V c) (fun t _ => flushed_eq V c t) covered

end Cert.KernelIdeal.Layer2

end
-- ==== Proof.RefLayers.lean ====
/-
  The reference program is three mean-aggregation layers. Read entry by entry, each layer's output is the
  specification's layer (self product plus neighbour product plus bias, the first two clamped below at zero) of the
  previous layer's output, of that output's mean-aggregated neighbour features, and of the layer's own slices of the
  weights and of the bias.
-/
import proofs.«136023_j41042707480955_1_alg».proof.Proof.Gen.ReferenceIdeal.Read
import proofs.«136023_j41042707480955_1_alg».proof.Proof.Spec

noncomputable section

namespace Cert.Sage.Ref

open Cert.ReferenceIdeal Cert.ReferenceIdeal.Read Idealize.ShloMosaic Idealize.ShloMosaic.ValueIdx Cert.Sage

/-- The first layer: the specification's activated layer of the input features. -/
theorem layer0 (x0 : (⟨S50000x128, .f32⟩ : BufTy).Contents (Elt Ideal)) (x1 x2 : (⟨S800000, .i32⟩ : BufTy).Contents (Elt Ideal))
    (x3 x4 : (⟨S3x128x128, .f32⟩ : BufTy).Contents (Elt Ideal)) (x5 : (⟨S3x128, .f32⟩ : BufTy).Contents (Elt Ideal)) :
    val_main_v33 (F := Ideal) x0 x1 x2 x3 x4 x5 =
      act x0 (val_main_v20 (F := Ideal) x0 x1 x2) (val_main_v22 (F := Ideal) x3) (val_main_v25 (F := Ideal) x4)
        (fun q => val_main_v29 (F := Ideal) x5 (ix1 q)) := by
  funext i
  obtain ⟨p, q, rfl⟩ : ∃ (p : Fin 50000) (q : Fin 128), i = ix2 p q := ⟨i 0, i 1, eq_ix2 i⟩
  rw [act_ix2]
  unfold affine
  rw [val_main_v33_apply, val_main_v32_apply, val_main_v27_apply, val_main_v23_apply, val_main_v26_apply,
    val_main_v31_apply, val_main_v30_apply, val_main_call0_v0_apply, val_main_call0_cst_apply]
  have el23 : ∀ k : Fin 128, lidx_main_v23 (ix2 p q) k = ix2 p k := fun k =>
    funext fun a => Fin.ext (by match a with | ⟨0, _⟩ => rfl | ⟨1, _⟩ => rfl)
  have er23 : ∀ k : Fin 128, ridx_main_v23 (ix2 p q) k = ix2 k q := fun k =>
    funext fun a => Fin.ext (by match a with | ⟨0, _⟩ => rfl | ⟨1, _⟩ => rfl)
  have el26 : ∀ k : Fin 128, lidx_main_v26 (ix2 p q) k = ix2 p k := fun k =>
    funext fun a => Fin.ext (by match a with | ⟨0, _⟩ => rfl | ⟨1, _⟩ => rfl)
  have er26 : ∀ k : Fin 128, ridx_main_v26 (ix2 p q) k = ix2 k q := fun k =>
    funext fun a => Fin.ext (by match a with | ⟨0, _⟩ => rfl | ⟨1, _⟩ => rfl)
  have eb : idx_main_v30 (idx_main_v31 (ix2 p q)) = ix1 q :=
    funext fun a => Fin.ext (by match a with | ⟨0, _⟩ => rfl)
  simp only [el23, er23, el26, er26, eb, Ideal.addf_def, Ideal.maximumf_def, Ideal.ofBits_def, Ideal.ofBits_zero_f32]

/-- The second layer: the specification's activated layer of the first layer's output. -/
theorem layer1 (x0 : (⟨S50000x128, .f32⟩ : BufTy).Contents (Elt Ideal)) (x1 x2 : (⟨S800000, .i32⟩ : BufTy).Contents (Elt Ideal))
    (x3 x4 : (⟨S3x128x128, .f32⟩ : BufTy).Contents (Elt Ideal)) (x5 : (⟨S3x128, .f32⟩ : BufTy).Contents (Elt Ideal)) :
    val_main_v58 (F := Ideal) x0 x1 x2 x3 x4 x5 =
      act (val_main_v33 (F := Ideal) x0 x1 x2 x3 x4 x5) (val_main_v45 (F := Ideal) x0 x1 x2 x3 x4 x5) (val_main_v47 (F := Ideal) x3) (val_main_v50 (F := Ideal) x4)
        (fun q => val_main_v54 (F := Ideal) x5 (ix1 q)) := by
  funext i
  obtain ⟨p, q, rfl⟩ : ∃ (p : Fin 50000) (q : Fin 128), i = ix2 p q := ⟨i 0, i 1, eq_ix2 i⟩
  rw [act_ix2]
  unfold affine
  rw [val_main_v58_apply, val_main_v57_apply, val_main_v52_apply, val_main_v48_apply, val_main_v51_apply,
    val_main_v56_apply, val_main_v55_apply, val_main_call1_v0_apply, val_main_call1_cst_apply]
  have el48 : ∀ k : Fin 128, lidx_main_v48 (ix2 p q) k = ix2 p k := fun k =>
    funext fun a => Fin.ext (by match a with | ⟨0, _⟩ => rfl | ⟨1, _⟩ => rfl)
  have er48 : ∀ k : Fin 128, ridx_main_v48 (ix2 p q) k = ix2 k q := fun k =>
    funext fun a => Fin.ext (by match a with | ⟨0, _⟩ => rfl | ⟨1, _⟩ => rfl)
  have el51 : ∀ k : Fin 128, lidx_main_v51 (ix2 p q) k = ix2 p k := fun k =>
    funext fun a => Fin.ext (by match a with | ⟨0, _⟩ => rfl | ⟨1, _⟩ => rfl)
  have er51 : ∀ k : Fin 128, ridx_main_v51 (ix2 p q) k = ix2 k q := fun k =>
    funext fun a => Fin.ext (by match a with | ⟨0, _⟩ => rfl | ⟨1, _⟩ => rfl)
  have eb : idx_main_v55 (idx_main_v56 (ix2 p q)) = ix1 q :=
    funext fun a => Fin.ext (by match a with | ⟨0, _⟩ => rfl)
  simp only [el48, er48, el51, er51, eb, Ideal.addf_def, Ideal.maximumf_def, Ideal.ofBits_def, Ideal.ofBits_zero_f32]

/-- The third layer: the specification's layer without activation, of the second layer's output. -/
theorem layer2 (x0 : (⟨S50000x128, .f32⟩ : BufTy).Contents (Elt Ideal)) (x1 x2 : (⟨S800000, .i32⟩ : BufTy).Contents (Elt Ideal))
    (x3 x4 : (⟨S3x128x128, .f32⟩ : BufTy).Contents (Elt Ideal)) (x5 : (⟨S3x128, .f32⟩ : BufTy).Contents (Elt Ideal)) :
    val_main_v82 (F := Ideal) x0 x1 x2 x3 x4 x5 =
      lin (val_main_v58 (F := Ideal) x0 x1 x2 x3 x4 x5) (val_main_v70 (F := Ideal) x0 x1 x2 x3 x4 x5) (val_main_v72 (F := Ideal) x3) (val_main_v75 (F := Ideal) x4)
        (fun q => val_main_v79 (F := Ideal) x5 (ix1 q)) := by
  funext i
  obtain ⟨p, q, rfl⟩ : ∃ (p : Fin 50000) (q : Fin 128), i = ix2 p q := ⟨i 0, i 1, eq_ix2 i⟩
  rw [lin_ix2]
  unfold affine
  rw [val_main_v82_apply, val_main_v77_apply, val_main_v73_apply, val_main_v76_apply,
    val_main_v81_apply, val_main_v80_apply]
  have el73 : ∀ k : Fin 128, lidx_main_v73 (ix2 p q) k = ix2 p k := fun k =>
    funext fun a => Fin.ext (by match a with | ⟨0, _⟩ => rfl | ⟨1, _⟩ => rfl)
  have er73 : ∀ k : Fin 128, ridx_main_v73 (ix2 p q) k = ix2 k q := fun k =>
    funext fun a => Fin.ext (by match a with | ⟨0, _⟩ => rfl | ⟨1, _⟩ => rfl)
  have el76 : ∀ k : Fin 128, lidx_main_v76 (ix2 p q) k = ix2 p k := fun k =>
    funext fun a => Fin.ext (by match a with | ⟨0, _⟩ => rfl | ⟨1, _⟩ => rfl)
  have er76 : ∀ k : Fin 128, ridx_main_v76 (ix2 p q) k = ix2 k q := fun k =>
    funext fun a => Fin.ext (by match a with | ⟨0, _⟩ => rfl | ⟨1, _⟩ => rfl)
  have eb : idx_main_v80 (idx_main_v81 (ix2 p q)) = ix1 q :=
    funext fun a => Fin.ext (by match a with | ⟨0, _⟩ => rfl)
  simp only [el73, er73, el76, er76, eb, Ideal.addf_def]

end Cert.Sage.Ref

end
-- ==== Proof.Bridge.lean ====
/-
  The kernel program's three layers are the reference's three layers.

  Both programs compute the degree normalisation and, before each layer, the mean of the neighbours' features by the
  same host operations (a gather along the source indices, a scatter-add along the destination indices, a product with
  the inverse degrees); the kernel program then runs a blocked kernel where the reference takes two whole-array
  products, a sum, the bias and the activation. Stage by stage: the arrays a layer's kernel finds on entry are the
  reference's stages of the same launch arrays (the host operations being the same functions, nothing about a gather or
  a scatter-add is ever opened), the kernel's output array is the specification's layer of them (the layer modules), and
  so is the reference's stage (the reference module); hence each layer's output array is the reference's stage, and
  the next stretch of host operations starts from equal arrays.
-/
import proofs.«136023_j41042707480955_1_alg».proof.Proof.Gen.KernelIdeal.Frame
import proofs.«136023_j41042707480955_1_alg».proof.Proof.Gen.ReferenceIdeal.Read
import proofs.«136023_j41042707480955_1_alg».proof.Proof.Layer0
import proofs.«136023_j41042707480955_1_alg».proof.Proof.Layer1
import proofs.«136023_j41042707480955_1_alg».proof.Proof.Layer2
import proofs.«136023_j41042707480955_1_alg».proof.Proof.RefLayers
import Idealize.ShloMosaic.Lib.StableHlo.Run
import Idealize.ShloMosaic.Lib.ValueLayout

set_option maxRecDepth 16384

noncomputable section

namespace Cert.Bridge

open Cert.KernelIdeal Cert.KernelIdeal.Gen Idealize.ShloMosaic Idealize.ShloMosaic.TcCoe Idealize.ShloMosaic.ValueIdx Idealize.ShloMosaic.StableHlo
open Idealize.SL Idealize.SL.Sem
open Cert.ReferenceIdeal.Read (val_main_v8 val_main_v20 val_main_v22 val_main_v25 val_main_v29 val_main_v33 val_main_v45 val_main_v47 val_main_v50 val_main_v54 val_main_v58 val_main_v70 val_main_v72 val_main_v75 val_main_v79 val_main_v82)

variable (m : (ℓ : Loc nD τ sig) → Buf (Elt Ideal) ℓ) (ρ : Dev nD → PrngReg) (c : Dev nD)

/-- The six launch arrays of core c. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- A row of 128 read as a 1 × 128 array: entry (0, q) is entry q. -/
theorem row_cast (x : (⟨1, ![128]⟩ : Shape).Idx → EReal) (h : (⟨1, ![128]⟩ : Shape).ShapeCasts ⟨2, ![1, 128]⟩) (q : Fin 128) :
    shapeCast ⟨2, ![1, 128]⟩ x h (ix2 (0 : Fin 1) q) = x (ix1 q) := shapeCast_a_1a_apply x h 0 q

/-! ## Layer 0: the first stretch of host operations starts from the launch arrays -/

set_option maxHeartbeats 4000000 in
theorem s0_h : V1 m ρ c main_arg0 = a0 m c := by
  show StableHlo.after hostOps0 (W0 m ρ c) (Proc.devRef .tc main_arg0) = _
  after_results_simp <;> rfl

set_option maxHeartbeats 4000000 in
theorem s0_hn : V1 m ρ c main_v20 = val_main_v20 (F := Ideal) (a0 m c) (a1 m c) (a2 m c) := by
  show StableHlo.after hostOps0 (W0 m ρ c) (Proc.devRef .tc main_v20) = _
  after_results_simp <;> rfl

set_option maxHeartbeats 4000000 in
theorem s0_ws : V1 m ρ c main_v22 = val_main_v22 (F := Ideal) (a3 m c) := by
  show StableHlo.after hostOps0 (W0 m ρ c) (Proc.devRef .tc main_v22) = _
  after_results_simp <;> rfl

set_option maxHeartbeats 4000000 in
theorem s0_wn : V1 m ρ c main_v24 = val_main_v25 (F := Ideal) (a4 m c) := by
  show StableHlo.after hostOps0 (W0 m ρ c) (Proc.devRef .tc main_v24) = _
  after_results_simp <;> rfl

set_option maxHeartbeats 4000000 in
theorem s0_inv : V1 m ρ c main_v8 = val_main_v8 (F := Ideal) (a2 m c) := by
  show StableHlo.after hostOps0 (W0 m ρ c) (Proc.devRef .tc main_v8) = _
  after_results_simp <;> rfl

set_option maxHeartbeats 4000000 in
theorem s0_b : (fun q : Fin 128 => V1 m ρ c main_v27 (ix2 (0 : Fin 1) q)) = fun q => val_main_v29 (F := Ideal) (a5 m c) (ix1 q) := by
  have e : V1 m ρ c main_v27 = shapeCast S1x128 (val_main_v29 (F := Ideal) (a5 m c)) shapeCasts_S128_S1x128 := by
    show StableHlo.after hostOps0 (W0 m ρ c) (Proc.devRef .tc main_v27) = _
    after_results_simp <;> rfl
  funext q
  exact (congrFun e (ix2 (0 : Fin 1) q)).trans (row_cast _ _ q)

/-- Layer 0's output array is the reference's first activated stage. -/
theorem out0 : Cert.KernelIdeal.Layer0.whole (V1 m ρ) c = val_main_v33 (F := Ideal) (a0 m c) (a1 m c) (a2 m c) (a3 m c) (a4 m c) (a5 m c) := by
  unfold Cert.KernelIdeal.Layer0.whole
  rw [s0_h, s0_hn, s0_ws, s0_wn, s0_b]
  exact (Cert.Sage.Ref.layer0 _ _ _ _ _ _).symm

/-! ## Between layer 0 and layer 1: the buffers the next stretch reads -/

theorem w2_h : W2 m ρ c (Proc.devRef .tc main_v28) = val_main_v33 (F := Ideal) (a0 m c) (a1 m c) (a2 m c) (a3 m c) (a4 m c) (a5 m c) :=
  (W2_arr m ρ c 5).trans ((Cert.KernelIdeal.Layer0.final (V1 m ρ) c).trans (out0 m ρ c))
set_option maxHeartbeats 4000000 in
theorem w2_a1 : W2 m ρ c (Proc.devRef .tc main_arg1) = a1 m c :=
  (W2_of_ne m ρ c main_arg1 (by decide)).trans (by
    show StableHlo.after hostOps0 (W0 m ρ c) (Proc.devRef .tc main_arg1) = _
    after_results_simp <;> rfl)
set_option maxHeartbeats 4000000 in
theorem w2_a2 : W2 m ρ c (Proc.devRef .tc main_arg2) = a2 m c :=
  (W2_of_ne m ρ c main_arg2 (by decide)).trans (by
    show StableHlo.after hostOps0 (W0 m ρ c) (Proc.devRef .tc main_arg2) = _
    after_results_simp <;> rfl)
set_option maxHeartbeats 4000000 in
theorem w2_a3 : W2 m ρ c (Proc.devRef .tc main_arg3) = a3 m c :=
  (W2_of_ne m ρ c main_arg3 (by decide)).trans (by
    show StableHlo.after hostOps0 (W0 m ρ c) (Proc.devRef .tc main_arg3) = _
    after_results_simp <;> rfl)
set_option maxHeartbeats 4000000 in
theorem w2_a4 : W2 m ρ c (Proc.devRef .tc main_arg4) = a4 m c :=
  (W2_of_ne m ρ c main_arg4 (by decide)).trans (by
    show StableHlo.after hostOps0 (W0 m ρ c) (Proc.devRef .tc main_arg4) = _
    after_results_simp <;> rfl)
set_option maxHeartbeats 4000000 in
theorem w2_a5 : W2 m ρ c (Proc.devRef .tc main_arg5) = a5 m c :=
  (W2_of_ne m ρ c main_arg5 (by decide)).trans (by
    show StableHlo.after hostOps0 (W0 m ρ c) (Proc.devRef .tc main_arg5) = _
    after_results_simp <;> rfl)
set_option maxHeartbeats 4000000 in
theorem w2_inv : W2 m ρ c (Proc.devRef .tc main_v8) = val_main_v8 (F := Ideal) (a2 m c) :=
  (W2_of_ne m ρ c main_v8 (by decide)).trans (by
    show StableHlo.after hostOps0 (W0 m ρ c) (Proc.devRef .tc main_v8) = _
    exact s0_inv m ρ c)

/-! ## Layer 1 -/

set_option maxHeartbeats 4000000 in
theorem s1_h : V3 m ρ c main_v28 = val_main_v33 (F := Ideal) (a0 m c) (a1 m c) (a2 m c) (a3 m c) (a4 m c) (a5 m c) := by
  show StableHlo.after hostOps1 (W2 m ρ c) (Proc.devRef .tc main_v28) = _
  after_results_simp
  exact w2_h m ρ c

set_option maxHeartbeats 4000000 in
theorem s1_hn : V3 m ρ c main_v40 = val_main_v45 (F := Ideal) (a0 m c) (a1 m c) (a2 m c) (a3 m c) (a4 m c) (a5 m c) := by
  show StableHlo.after hostOps1 (W2 m ρ c) (Proc.devRef .tc main_v40) = _
  after_results_simp
  rw [w2_h m ρ c, w2_a1 m ρ c, w2_a2 m ρ c, w2_inv m ρ c]
  rfl

set_option maxHeartbeats 4000000 in
theorem s1_ws : V3 m ρ c main_v42 = val_main_v47 (F := Ideal) (a3 m c) := by
  show StableHlo.after hostOps1 (W2 m ρ c) (Proc.devRef .tc main_v42) = _
  after_results_simp
  rw [w2_a3 m ρ c]
  rfl

set_option maxHeartbeats 4000000 in
theorem s1_wn : V3 m ρ c main_v44 = val_main_v50 (F := Ideal) (a4 m c) := by
  show StableHlo.after hostOps1 (W2 m ρ c) (Proc.devRef .tc main_v44) = _
  after_results_simp
  rw [w2_a4 m ρ c]
  rfl

set_option maxHeartbeats 4000000 in
theorem s1_b : (fun q : Fin 128 => V3 m ρ c main_v47 (ix2 (0 : Fin 1) q)) = fun q => val_main_v54 (F := Ideal) (a5 m c) (ix1 q) := by
  have e : V3 m ρ c main_v47 = shapeCast S1x128 (val_main_v54 (F := Ideal) (a5 m c)) shapeCasts_S128_S1x128 := by
    show StableHlo.after hostOps1 (W2 m ρ c) (Proc.devRef .tc main_v47) = _
    after_results_simp
    rw [w2_a5 m ρ c]
    rfl
  funext q
  exact (congrFun e (ix2 (0 : Fin 1) q)).trans (row_cast _ _ q)

/-- Layer 1's output array is the reference's stage. -/
theorem out1 : Cert.KernelIdeal.Layer1.whole (V3 m ρ) c = val_main_v58 (F := Ideal) (a0 m c) (a1 m c) (a2 m c) (a3 m c) (a4 m c) (a5 m c) := by
  unfold Cert.KernelIdeal.Layer1.whole
  rw [s1_h, s1_hn, s1_ws, s1_wn, s1_b]
  exact (Cert.Sage.Ref.layer1 _ _ _ _ _ _).symm

/-! ## Between layer 1 and layer 2: the buffers the next stretch reads -/

theorem w4_h : W4 m ρ c (Proc.devRef .tc main_v48) = val_main_v58 (F := Ideal) (a0 m c) (a1 m c) (a2 m c) (a3 m c) (a4 m c) (a5 m c) :=
  (W4_arr m ρ c 5).trans ((Cert.KernelIdeal.Layer1.final (V3 m ρ) c).trans (out1 m ρ c))
set_option maxHeartbeats 4000000 in
theorem w4_a1 : W4 m ρ c (Proc.devRef .tc main_arg1) = a1 m c :=
  (W4_of_ne m ρ c main_arg1 (by decide)).trans (by
    show StableHlo.after hostOps1 (W2 m ρ c) (Proc.devRef .tc main_arg1) = _
    after_results_simp
    exact w2_a1 m ρ c)
set_option maxHeartbeats 4000000 in
theorem w4_a2 : W4 m ρ c (Proc.devRef .tc main_arg2) = a2 m c :=
  (W4_of_ne m ρ c main_arg2 (by decide)).trans (by
    show StableHlo.after hostOps1 (W2 m ρ c) (Proc.devRef .tc main_arg2) = _
    after_results_simp
    exact w2_a2 m ρ c)
set_option maxHeartbeats 4000000 in
theorem w4_a3 : W4 m ρ c (Proc.devRef .tc main_arg3) = a3 m c :=
  (W4_of_ne m ρ c main_arg3 (by decide)).trans (by
    show StableHlo.after hostOps1 (W2 m ρ c) (Proc.devRef .tc main_arg3) = _
    after_results_simp
    exact w2_a3 m ρ c)
set_option maxHeartbeats 4000000 in
theorem w4_a4 : W4 m ρ c (Proc.devRef .tc main_arg4) = a4 m c :=
  (W4_of_ne m ρ c main_arg4 (by decide)).trans (by
    show StableHlo.after hostOps1 (W2 m ρ c) (Proc.devRef .tc main_arg4) = _
    after_results_simp
    exact w2_a4 m ρ c)
set_option maxHeartbeats 4000000 in
theorem w4_a5 : W4 m ρ c (Proc.devRef .tc main_arg5) = a5 m c :=
  (W4_of_ne m ρ c main_arg5 (by decide)).trans (by
    show StableHlo.after hostOps1 (W2 m ρ c) (Proc.devRef .tc main_arg5) = _
    after_results_simp
    exact w2_a5 m ρ c)
set_option maxHeartbeats 4000000 in
theorem w4_inv : W4 m ρ c (Proc.devRef .tc main_v8) = val_main_v8 (F := Ideal) (a2 m c) :=
  (W4_of_ne m ρ c main_v8 (by decide)).trans (by
    show StableHlo.after hostOps1 (W2 m ρ c) (Proc.devRef .tc main_v8) = _
    after_results_simp
    exact w2_inv m ρ c)

/-! ## Layer 2 -/

set_option maxHeartbeats 4000000 in
theorem s2_h : V5 m ρ c main_v48 = val_main_v58 (F := Ideal) (a0 m c) (a1 m c) (a2 m c) (a3 m c) (a4 m c) (a5 m c) := by
  show StableHlo.after hostOps2 (W4 m ρ c) (Proc.devRef .tc main_v48) = _
  after_results_simp
  exact w4_h m ρ c

set_option maxHeartbeats 4000000 in
theorem s2_hn : V5 m ρ c main_v60 = val_main_v70 (F := Ideal) (a0 m c) (a1 m c) (a2 m c) (a3 m c) (a4 m c) (a5 m c) := by
  show StableHlo.after hostOps2 (W4 m ρ c) (Proc.devRef .tc main_v60) = _
  after_results_simp
  rw [w4_h m ρ c, w4_a1 m ρ c, w4_a2 m ρ c, w4_inv m ρ c]
  rfl

set_option maxHeartbeats 4000000 in
theorem s2_ws : V5 m ρ c main_v62 = val_main_v72 (F := Ideal) (a3 m c) := by
  show StableHlo.after hostOps2 (W4 m ρ c) (Proc.devRef .tc main_v62) = _
  after_results_simp
  rw [w4_a3 m ρ c]
  rfl

set_option maxHeartbeats 4000000 in
theorem s2_wn : V5 m ρ c main_v64 = val_main_v75 (F := Ideal) (a4 m c) := by
  show StableHlo.after hostOps2 (W4 m ρ c) (Proc.devRef .tc main_v64) = _
  after_results_simp
  rw [w4_a4 m ρ c]
  rfl

set_option maxHeartbeats 4000000 in
theorem s2_b : (fun q : Fin 128 => V5 m ρ c main_v67 (ix2 (0 : Fin 1) q)) = fun q => val_main_v79 (F := Ideal) (a5 m c) (ix1 q) := by
  have e : V5 m ρ c main_v67 = shapeCast S1x128 (val_main_v79 (F := Ideal) (a5 m c)) shapeCasts_S128_S1x128 := by
    show StableHlo.after hostOps2 (W4 m ρ c) (Proc.devRef .tc main_v67) = _
    after_results_simp
    rw [w4_a5 m ρ c]
    rfl
  funext q
  exact (congrFun e (ix2 (0 : Fin 1) q)).trans (row_cast _ _ q)

/-- Layer 2's output array is the reference's stage. -/
theorem out2 : Cert.KernelIdeal.Layer2.whole (V5 m ρ) c = val_main_v82 (F := Ideal) (a0 m c) (a1 m c) (a2 m c) (a3 m c) (a4 m c) (a5 m c) := by
  unfold Cert.KernelIdeal.Layer2.whole
  rw [s2_h, s2_hn, s2_ws, s2_wn, s2_b]
  exact (Cert.Sage.Ref.layer2 _ _ _ _ _ _).symm

/-! ## The result -/

/-- The kernel program's result buffer ends at the reference's last stage of the launch arrays. -/
theorem result : W6 m ρ c (Proc.devRef .tc main_v68) = val_main_v82 (F := Ideal) (a0 m c) (a1 m c) (a2 m c) (a3 m c) (a4 m c) (a5 m c) :=
  (W6_arr m ρ c 5).trans ((Cert.KernelIdeal.Layer2.final (V5 m ρ) c).trans (out2 m ρ c))

end Cert.Bridge

end
-- ==== Proof.lean ====
/-
  Three stacked mean-aggregation layers over a fixed graph: the blocked kernel program against the whole-array reference.

  Each layer maps node features h (50000 × 128) to  h · W_self + mean-of-neighbours(h) · W_neigh + bias  (clamped below at
  zero in the first two layers). Both programs form the neighbour mean by the same host operations; the kernel program
  computes the rest of a layer in a kernel that walks the node rows in 25 blocks of 2000, the reference by two whole-array
  products. Over the extended reals the narrowing of a product's operands is the identity and a product into a zero
  accumulator is the plain sum over the contracted axis, and both programs add the two products first and the bias
  second, so a layer is ONE function of whole arrays on both sides (Proof/Spec.lean) and no law that would need finite
  entries is used. The modules: what a block's stored value is, entry by entry (Payload); each layer's output array as
  that function of the arrays the layer finds on entry (Layer0, Layer1, Layer2); the reference's stages as the same
  function (RefLayers); the run of the three-region program with every buffer's final contents named (KernelRun); the
  stage-by-stage identification of the two programs (Bridge); and the five claims (Claims). The idealization rewrote no
  operation, so the preservation claim is trivial.
-/
import proofs.«136023_j41042707480955_1_alg».proof.Defs
import proofs.«136023_j41042707480955_1_alg».proof.Proof.Claims
import proofs.«136023_j41042707480955_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of fun m ρ c => Cert.Bridge.result m ρ c⟩

end Cert.Proof

end
